-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S1 : Shape := ⟨1, ![1]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8388608x8 .f32) (main_arg1 : FVec F S8388608x8 .f32) (main_arg2 : FVec F S1 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  let main_v4 : FVec F S8388608x8 .f32 := Host.absf main_arg1
  let main_cst_0 : FVec F S_ .f32 := constant S_ .f32 0x7F800000#32
  let main_v5 : FVec F S8388608x8 .f32 := broadcastInDim S8388608x8 ![] bcast_S_S8388608x8 main_cst_0
  let main_v6 : IVec S8388608x8 1 := cmpf .olt main_v4 main_v5
  let main_c_1 : IVec S_ 1 := constantI S_ 1 1#1
  let main_v7 : IVec S_ 1 := (fun x v => Host.reduce IntOp.andi x v reducesTo_S8388608x8_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8388608x8 : Shape := ⟨2, ![8388608, 8]⟩
abbrev S1 : Shape := ⟨1, ![1]⟩
abbrev S524288x128 : Shape := ⟨2, ![524288, 128]⟩
abbrev S2x8x128 : Shape := ⟨3, ![2, 8, 128]⟩
abbrev S16384x128 : Shape := ⟨2, ![16384, 128]⟩
abbrev S1x8x128 : Shape := ⟨3, ![1, 8, 128]⟩
abbrev S8x128 : Shape := ⟨2, ![8, 128]⟩
abbrev S2048x8x128 : Shape := ⟨3, ![2048, 8, 128]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S1, .f32⟩
  | .hbm, ⟨3, _⟩ => ⟨S524288x128, .f32⟩
  | .hbm, ⟨4, _⟩ => ⟨S524288x128, .f32⟩
  | .hbm, ⟨5, _⟩ => ⟨S2x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8388608x8_S524288x128 : S8388608x8.ShapeCasts S524288x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S2048x8x128 : S16384x128.ShapeCasts S2048x8x128
  reduces_S2048x8x128_S8x128 : S2048x8x128.Reduces [0] S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S524288x128.size a
  hwx0_1 : ∀ i : grid0.Coords, EltTy.bits .f32 = 32 ∨ (Rect.block (s := S524288x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x8 : Shape := ⟨2, ![8388608, 8]⟩
abbrev S1 : Shape := ⟨1, ![1]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S1, .f32⟩
  | .hbm, ⟨3, _⟩ => ⟨S8388608x8, .f32⟩
  | .hbm, ⟨4, _⟩ => ⟨S8388608x8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  reducesTo_S8388608x8_S_d0_1 : S8388608x8.ReducesTo [0, 1] S_
  h_S_ : 0 < S_.numel

variable [Facts₀]

class Facts : Prop extends Facts₀ where

variable [Facts]
-- ==== Proof.Pieces.lean ====
/-
  What each control case of the kernel body leaves behind, as a term over the body's loads.

  The body keeps a running [8,128] partial in a scratch buffer. On the first step of a shard it stores zeros there,
  reads them back and stores `zeros + partial`; on every other step it stores `scratch + partial`; on the last step of
  a shard it also copies the scratch just written into the output block, adding a leading unit axis. Each store covers
  its whole buffer, so what a buffer holds afterwards is the last store's payload, and each load reads a whole buffer,
  so it reads that buffer's contents. Nothing here depends on what a float is.
-/
import proofs.«121687_j42545946034228_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a shard: the scratch is zeroed, read back, and left at `zero + partial`. -/
theorem scratch_A (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S16384x128 .f32) (x1 : Vec F S16384x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread, View.ld_unit_zero (S := S16384x128) hz2]

/-- A middle step: the scratch, found at `xs0`, is left at `xs0 + partial`. -/
theorem scratch_B (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S16384x128 .f32) (x1 : Vec F S16384x128 .f32) (xs0 : Vec F S8x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S16384x128) hz2, View.ld_unit_zero (S := S8x128) hz2]

/-- Last step of a shard: the scratch likewise, -/
theorem scratch_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S16384x128 .f32) (x1 : Vec F S16384x128 .f32) (xs0 : Vec F S8x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S16384x128) hz2, View.ld_unit_zero (S := S8x128) hz2]

/-- and the output block is the scratch just written, with a leading unit axis. -/
theorem out_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S16384x128 .f32) (x1 : Vec F S16384x128 .f32) (xs0 : Vec F S8x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S8x128) _ hz2]
  simp only [View.readAt_eq_ld, harg2.read_unread, harg3.read_unread, harg5.read_unread,
    View.ld_unit_zero (S := S16384x128) hz2, View.ld_unit_zero (S := S8x128) hz2]

end Cert.KernelIdeal.Pieces

end
-- ==== Proof.Chain.lean ====
/-
  The accumulator, one point at a time.

  After point `t` the scratch holds the step's stored value of the two input blocks at `t`, taken over the zero block
  when `t` is the first point of its shard (`t % 16 = 0`) and over what point `t - 1` left otherwise; at the last point
  of a shard (`t % 16 = 15`) the output block is that scratch with a leading unit axis. This is the three control cases
  of the body read through the point-by-point description of the run, with nothing yet said about what a float is.
-/
import Idealize.ShloMosaic.Lib.Pipeline.Value
import Idealize.ShloMosaic.Lib.Tactic
import proofs.«121687_j42545946034228_2_alg».proof.Proof.Pieces

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]

open Cert.KernelIdeal.Pieces

variable (m : (ℓ : Loc nD τ sig) → Buf (Elt F) ℓ)

/-- What the scratch holds after point `t`: the step's payload of the two input blocks, over the zero block when `t`
    is the first point of its shard and over what the point before left otherwise. -/
theorem step_scratch (c : Dev nD) (t : Fin cfg0.N) :
    (outsAt0 m c t.val t.isLt).2
      = k0_pay2 (iblk m c 0 t) (iblk m c 1 t)
          (if t.val % 16 = 0 then k0_pay1 (F := F)
            else (outsAt0 m c (t.val - 1) (Nat.lt_of_le_of_lt (Nat.sub_le _ _) t.isLt)).2) := by
  have hN : t.val < 32 := lt_of_lt_of_eq t.isLt (show cfg0.N = 32 from N_0)
  by_cases h0 : t.val % 16 = 0
  · have h1 : ¬t.val % 16 = 15 := by omega
    rw [if_pos h0, outsAt0_A m c t h0 h1]
    exact scratch_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)
  · rw [if_neg h0]
    by_cases h1 : t.val % 16 = 15
    · rw [outsAt0_C m c t h0 h1]
      exact scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
    · rw [outsAt0_B m c t h0 h1]
      exact scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At the last point of a shard the output block is the scratch just written, with a leading unit axis. -/
theorem step_out (c : Dev nD) (t : Fin cfg0.N) (h1 : t.val % 16 = 15) :
    (outsAt0 m c t.val t.isLt).1 = k0_pay3 (outsAt0 m c t.val t.isLt).2 := by
  have h0 : ¬t.val % 16 = 0 := by omega
  have hs : (outsAt0 m c t.val t.isLt).2 = k0_pay2 (iblk m c 0 t) (iblk m c 1 t) (outsAt0 m c (t.val - 1) (Nat.lt_of_le_of_lt (Nat.sub_le _ _) t.isLt)).2 := by
    rw [outsAt0_C m c t h0 h1]
    exact scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  rw [hs, outsAt0_C m c t h0 h1]
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.KernelIdeal.Chain

end
-- ==== Proof.Payload.lean ====
/-
  The body's three stored values read at an index, over the extended reals.

  The zero block is `0` everywhere. The partial a step adds to the scratch is formed by viewing the [16384,128]
  block of absolute differences as 2048 groups of eight rows and summing over the groups: at sublane `a` and lane `b`
  it is the sum over `g` of the entry at row `8 g + a`, lane `b` (the group view keeps row-major positions, and
  `(8 g + a) 128 + b` is the position of `(g, a, b)`). The output block is the scratch with a leading unit axis.
-/
import proofs.«121687_j42545946034228_2_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Payload

open Cert.KernelIdeal Cert.KernelIdeal.Gen

variable {F : FTy → Type} [FloatOps F]

open Idealize.ShloMosaic.ValueIdx

/-- Row `8 g + a` of a [16384,128] block: sublane `a` of the `g`-th group of eight rows. -/
def groupRow (g : Fin 2048) (a : Fin 8) : Fin 16384 := ⟨g.val * 8 + a.val, by omega⟩

theorem groupRow_val (g : Fin 2048) (a : Fin 8) : (groupRow g a).val = g.val * 8 + a.val := rfl

/-- The block the first step stores into the scratch is zero everywhere. -/
theorem pay1_apply (j : S8x128.Idx) : k0_pay1 (F := Ideal) j = 0 := by
  unfold k0_pay1
  rw [shapeCast_self]
  exact Ideal.ofBits_zero_f32

/-- The partial a step adds: at sublane `a`, lane `b`, what the scratch held plus the sum over the 2048 groups of eight
    rows of the absolute difference of the two input blocks at row `8 g + a`, lane `b`. -/
theorem pay2_apply (x0 x1 : Vec Ideal S16384x128 .f32) (xs : Vec Ideal S8x128 .f32) (a : Fin 8) (b : Fin 128) :
    k0_pay2 (F := Ideal) x0 x1 xs (ix2 a b)
      = xs (ix2 a b) + ∑ g : Fin 2048,
          FloatOps.absf (F := Ideal) (φ := .f32) (x0 (ix2 (groupRow g a) b) - x1 (ix2 (groupRow g a) b)) := by
  unfold k0_pay2
  dsimp only
  rw [shapeCast_self]
  refine congrArg (fun z => xs (ix2 a b) + z) ?_
  refine (Ideal.multiReduction_add_single _ 0x00000000#32 reduces_S2048x8x128_S8x128 (.inl rfl) rfl (ix2 a b)).trans ?_
  show ∑ g : Fin 2048, _ = _
  refine Finset.sum_congr rfl fun g _ => ?_
  refine (shapeCast_apply _ _ _ (ix2 (groupRow g a) b) ?_).trans ?_
  · rw [Shape.rowMajor_val_two, Shape.rowMajor_val_three]
    show (g.val * 8 + a.val) * 128 + b.val = (g.val * 8 + a.val) * 128 + b.val
    rfl
  · rw [shapeCast_self, shapeCast_self]
    rfl

/-- The output block is the scratch with a leading unit axis. -/
theorem pay3_apply (v : Vec Ideal S8x128 .f32) (z : Fin 1) (a : Fin 8) (b : Fin 128) :
    k0_pay3 (F := Ideal) v (ix3 z a b) = v (ix2 a b) := by
  unfold k0_pay3
  refine shapeCast_apply _ _ _ (ix2 a b) ?_
  rw [Shape.rowMajor_val_two, Shape.rowMajor_val_three]
  show a.val * 128 + b.val = (z.val * 8 + a.val) * 128 + b.val
  have := z.isLt
  omega

end Cert.KernelIdeal.Payload

end
-- ==== Proof.Blocks.lean ====
/-
  The input blocks as entries of the arguments.

  Point `t` of the 2 × 16 grid (shard `t / 16`, step `t % 16`) fetches rows `16384 t … 16384 t + 16383` of each input
  viewed as [524288,128], so a block's entry `(r, l)` is the view's entry `(16384 t + r, l)`. The view is the argument
  [8388608,8] re-read at the same row-major positions: entry `(R, L)` is the argument's entry at flat position
  `128 R + L`, that is row `(128 R + L) / 8`, column `(128 R + L) % 8`. When a point writes the output it writes
  block `t / 16`.
-/
import proofs.«121687_j42545946034228_2_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]

open Idealize.ShloMosaic.ValueIdx

variable (m : (ℓ : Loc nD τ sig) → Buf (Elt F) ℓ)

/-- Point `t` of the 2 × 16 grid fetches row block `t` of both reshaped inputs, -/
theorem in_index0 : ∀ t : Fin cfg0.N, win0_0.index t 0 = t.val ∧ win0_0.index t 1 = 0 :=
  (by decide +kernel : ∀ t : Fin grid0.N, win0_0.index t 0 = t.val ∧ win0_0.index t 1 = 0)
theorem in_index1 : ∀ t : Fin cfg0.N, win0_1.index t 0 = t.val ∧ win0_1.index t 1 = 0 :=
  (by decide +kernel : ∀ t : Fin grid0.N, win0_1.index t 0 = t.val ∧ win0_1.index t 1 = 0)
/-- and writes, when it writes, output block `t / 16`. -/
theorem out_index : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- Row `16384 t + r` of a [524288,128] array: row `r` of its `t`-th block of 16384 rows. -/
def blockRow (t : Fin cfg0.N) (r : Fin 16384) : Fin 524288 :=
  ⟨t.val * 16384 + r.val, by
    have h : t.val < 32 := lt_of_lt_of_eq t.isLt (show cfg0.N = 32 from N_0)
    omega⟩

theorem blockRow_val (t : Fin cfg0.N) (r : Fin 16384) : (blockRow t r).val = t.val * 16384 + r.val := rfl

/-- The first input's block at point `t`, at row `r` and lane `l`, is the reshaped first argument at row `16384 t + r`. -/
theorem iblk0_apply (c : Dev nD) (t : Fin cfg0.N) (r : Fin 16384) (l : Fin 128) :
    (iblk m c 0 t : Vec F S16384x128 .f32) (ix2 r l) = V m c main_v0 (ix2 (blockRow t r) l) := by
  have hi := in_index0 t
  unfold iblk
  rw [View.read_apply]
  show V m c main_v0 (((cfg0.win 0).blk t).view.emb (ix2 r l)) = V m c main_v0 (ix2 (blockRow t r) l)
  refine congrArg (V m c main_v0) (funext fun a => Fin.ext ?_)
  match a with
  | ⟨0, _⟩ =>
    show win0_0.index t 0 * 16384 + 1 * r.val = t.val * 16384 + r.val
    rw [hi.1]; omega
  | ⟨1, _⟩ =>
    show win0_0.index t 1 * 128 + 1 * l.val = l.val
    rw [hi.2]; omega

/-- The second input's likewise. -/
theorem iblk1_apply (c : Dev nD) (t : Fin cfg0.N) (r : Fin 16384) (l : Fin 128) :
    (iblk m c 1 t : Vec F S16384x128 .f32) (ix2 r l) = V m c main_v1 (ix2 (blockRow t r) l) := by
  have hi := in_index1 t
  unfold iblk
  rw [View.read_apply]
  show V m c main_v1 (((cfg0.win 1).blk t).view.emb (ix2 r l)) = V m c main_v1 (ix2 (blockRow t r) l)
  refine congrArg (V m c main_v1) (funext fun a => Fin.ext ?_)
  match a with
  | ⟨0, _⟩ =>
    show win0_1.index t 0 * 16384 + 1 * r.val = t.val * 16384 + r.val
    rw [hi.1]; omega
  | ⟨1, _⟩ =>
    show win0_1.index t 1 * 128 + 1 * l.val = l.val
    rw [hi.2]; omega

/-- The region finds the first reshaped input as the first argument viewed [524288,128], -/
theorem V_main_v0 (c : Dev nD) :
    V m c main_v0 = shapeCast S524288x128 (m ((c : Thread nD τ).loc main_arg0)) shapeCasts_S8388608x8_S524288x128 := by
  show StableHlo.after hostOps0 (fun b => m (c, b)) (Proc.devRef .tc main_v0) = _
  after_results
  rfl
/-- and the second as the second argument viewed so. -/
theorem V_main_v1 (c : Dev nD) :
    V m c main_v1 = shapeCast S524288x128 (m ((c : Thread nD τ).loc main_arg1)) shapeCasts_S8388608x8_S524288x128 := by
  show StableHlo.after hostOps0 (fun b => m (c, b)) (Proc.devRef .tc main_v1) = _
  after_results
  rfl

/-- The [524288,128] view of an [8388608,8] array keeps row-major positions: entry `(R, L)` is the entry at
    row `(128 R + L) / 8`, column `(128 R + L) % 8`. -/
theorem view_apply {α : Type} (x : S8388608x8.Idx → α) (R : Fin 524288) (L : Fin 128) (p : Fin 8388608) (q : Fin 8)
    (h : p.val * 8 + q.val = R.val * 128 + L.val) :
    shapeCast S524288x128 x shapeCasts_S8388608x8_S524288x128 (ix2 R L) = x (ix2 p q) := by
  refine shapeCast_apply _ _ _ (ix2 p q) ?_
  rw [Shape.rowMajor_val_two, Shape.rowMajor_val_two]
  exact h

end Cert.KernelIdeal.Blocks

end
-- ==== Proof.LibRangeDigits.lean ====
/-
  Sums over an initial segment of the naturals, split by digits.

  A number below `a * b` is `i * b + j` for exactly one pair `i < a`, `j < b`; so a sum over the numbers
  below `a * b` is the sum over `i` of the sums over `j`. Applied four times this writes a sum over the numbers
  below `S * (I * (G * (A * B)))` as a five-fold sum over mixed-radix digits, and since the sums are finite and
  the monoid commutative the five sums may be taken in any order. Nothing here needs more than a commutative
  additive monoid: no subtraction, no cancellation, no finiteness of the summands.
-/
import Mathlib

namespace RangeDigits

open Finset

variable {M : Type*} [AddCommMonoid M]

/-- A sum over the numbers below `a * b`, read as `a` consecutive runs of length `b`. -/
theorem sum_range_mul (a b : ℕ) (f : ℕ → M) :
    ∑ n ∈ range (a * b), f n = ∑ i ∈ range a, ∑ j ∈ range b, f (i * b + j) := by
  induction a with
  | zero => simp
  | succ a ih =>
    rw [Nat.succ_mul, sum_range_add, ih, sum_range_succ]

/-- A sum over `Fin n` of a function of the value is the sum over the numbers below `n`. -/
theorem sum_fin_eq_range (n : ℕ) (f : ℕ → M) :
    ∑ k : Fin n, f k.val = ∑ k ∈ range n, f k :=
  Fin.sum_univ_eq_sum_range f n

/-- Five digits `s, i, g, a, b` with radices `S, I, G, A, B`: the sum over the numbers below the product of the
    radices is the sum over the digits, here taken in the order `s, a, b, i, g`. -/
theorem sum_range_digits5 (S I G A B : ℕ) (f : ℕ → M) :
    ∑ n ∈ range (S * (I * (G * (A * B)))), f n
      = ∑ s ∈ range S, ∑ a ∈ range A, ∑ b ∈ range B, ∑ i ∈ range I, ∑ g ∈ range G,
          f (s * (I * (G * (A * B))) + (i * (G * (A * B)) + (g * (A * B) + (a * B + b)))) := by
  rw [sum_range_mul]
  refine sum_congr rfl fun s _ => ?_
  rw [sum_range_mul]
  have h : ∀ i, ∑ j ∈ range (G * (A * B)), f (s * (I * (G * (A * B))) + (i * (G * (A * B)) + j))
      = ∑ g ∈ range G, ∑ a ∈ range A, ∑ b ∈ range B,
          f (s * (I * (G * (A * B))) + (i * (G * (A * B)) + (g * (A * B) + (a * B + b)))) := by
    intro i
    rw [sum_range_mul]
    refine sum_congr rfl fun g _ => ?_
    rw [sum_range_mul]
  rw [sum_congr rfl fun i _ => h i]
  -- the digits in the order i, g, a, b; move a and b outward
  refine (sum_congr rfl fun i _ => sum_comm).trans ?_
  refine sum_comm.trans ?_
  refine sum_congr rfl fun a _ => ?_
  refine (sum_congr rfl fun i _ => sum_comm).trans ?_
  exact sum_comm

end RangeDigits
-- ==== Proof.Spec.lean ====
/-
  The mean absolute difference, and the two ways of adding it up.

  For two [8388608,8] arrays `x`, `y` of extended reals let `term x y n` be `|x - y|` at flat (row-major) position `n`,
  and `total x y` the sum of the terms over all 67108864 positions. One program adds the terms index by index. The
  other works on the arrays viewed as [524288,128] (flat position `128 R + L` at row `R`, lane `L`): point `t` of 32
  takes rows `16384 t …`, views them as 2048 groups of eight rows, and adds over the groups, so that sublane `a`,
  lane `b` receives `part x y t a b`; a shard `s` of two adds its sixteen points' parts into entry `(a, b)` of its own
  accumulator, `cell x y s a b`; the 2 × 8 × 128 cells are then added. A flat position is
  `((16 s + i) 16384 + 8 g + a) 128 + b` for exactly one `(s, i, g, a, b)` — mixed-radix digits with radices
  2, 16, 2048, 8, 128 — so both ways add every term exactly once, and addition of extended reals is commutative and
  associative: the two sums are equal, whatever the entries are (infinite ones included).
-/
import Idealize.ShloMosaic.PureOps.Ideal
import Idealize.ShloMosaic.Lib.ValueIdx
import proofs.«121687_j42545946034228_2_alg».proof.Proof.LibRangeDigits

noncomputable section

namespace MeanAbsDiff

open Idealize.ShloMosaic Idealize.ShloMosaic.ValueIdx Finset RangeDigits

/-- An [8388608,8] array of extended reals. -/
abbrev Arr : Type := (⟨2, ![8388608, 8]⟩ : Shape).Idx → EReal

/-- The row and the column of flat position `n`. -/
def rowOf (n : ℕ) : Fin 8388608 := ⟨n / 8 % 8388608, Nat.mod_lt _ (by norm_num)⟩
def colOf (n : ℕ) : Fin 8 := ⟨n % 8, Nat.mod_lt _ (by norm_num)⟩

theorem rowOf_val (n : ℕ) : (rowOf n).val = n / 8 % 8388608 := rfl
theorem colOf_val (n : ℕ) : (colOf n).val = n % 8 := rfl

/-- `|x - y|` at flat position `n`. -/
def term (x y : Arr) (n : ℕ) : EReal :=
  FloatOps.absf (F := Ideal) (φ := .f32) (x (ix2 (rowOf n) (colOf n)) - y (ix2 (rowOf n) (colOf n)))

/-- The sum of all the terms. -/
def total (x y : Arr) : EReal := ∑ n ∈ range 67108864, term x y n

/-- What point `t` adds at sublane `a`, lane `b`: the terms of its rows `8 g + a`, over the groups `g`. -/
def part (x y : Arr) (t a b : ℕ) : EReal := ∑ g ∈ range 2048, term x y ((t * 16384 + (g * 8 + a)) * 128 + b)

/-- What shard `s`'s accumulator ends holding at sublane `a`, lane `b`: its sixteen points' parts. -/
def cell (x y : Arr) (s a b : ℕ) : EReal := ∑ i ∈ range 16, part x y (s * 16 + i) a b

/-- The term at the position of row `p`, column `q` is `|x - y|` there. -/
theorem term_at (x y : Arr) (p : Fin 8388608) (q : Fin 8) :
    term x y (p.val * 8 + q.val) = FloatOps.absf (F := Ideal) (φ := .f32) (x (ix2 p q) - y (ix2 p q)) := by
  have hr : rowOf (p.val * 8 + q.val) = p := Fin.ext (by rw [rowOf_val]; omega)
  have hc : colOf (p.val * 8 + q.val) = q := Fin.ext (by rw [colOf_val]; omega)
  unfold term
  rw [hr, hc]

/-- Adding `|x - y|` over every index is the total. -/
theorem sum_idx_eq_total (x y : Arr) :
    ∑ j : (⟨2, ![8388608, 8]⟩ : Shape).Idx, FloatOps.absf (F := Ideal) (φ := .f32) (x j - y j) = total x y := by
  rw [sum_idx2]
  unfold total
  rw [show (67108864 : ℕ) = 8388608 * 8 from by norm_num, sum_range_mul,
    ← Fin.sum_univ_eq_sum_range (fun p => ∑ q ∈ range 8, term x y (p * 8 + q)) 8388608]
  refine sum_congr rfl fun p _ => ?_
  rw [← Fin.sum_univ_eq_sum_range (fun q => term x y (p.val * 8 + q)) 8]
  exact sum_congr rfl fun q _ => (term_at x y p q).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine sum_congr rfl fun a _ => ?_
  rw [Fintype.sum_prod_type]
  rfl

/-- Adding the cells is the total: every flat position has exactly one set of digits. -/
theorem sum_cells_range (x y : Arr) :
    ∑ s ∈ range 2, ∑ a ∈ range 8, ∑ b ∈ range 128, cell x y s a b = total x y := by
  unfold total cell part
  rw [show (67108864 : ℕ) = 2 * (16 * (2048 * (8 * 128))) from by norm_num, sum_range_digits5]
  refine sum_congr rfl fun s _ => sum_congr rfl fun a _ => sum_congr rfl fun b _ =>
    sum_congr rfl fun i _ => sum_congr rfl fun g _ => congrArg (term x y) ?_
  ring

/-- The same with the cells indexed by a [2,8,128] array's indices. -/
theorem sum_cells (x y : Arr) :
    ∑ j : (⟨3, ![2, 8, 128]⟩ : Shape).Idx, cell x y (j 0).val (j 1).val (j 2).val = total x y := by
  rw [sum_idx3, ← sum_cells_range,
    ← Fin.sum_univ_eq_sum_range (fun s => ∑ a ∈ range 8, ∑ b ∈ range 128, cell x y s a b) 2]
  refine sum_congr rfl fun s _ => ?_
  rw [← Fin.sum_univ_eq_sum_range (fun a => ∑ b ∈ range 128, cell x y s.val a b) 8]
  refine sum_congr rfl fun a _ => ?_
  rw [← Fin.sum_univ_eq_sum_range (fun b => cell x y s.val a.val b) 128]

/-- The mean as both programs form it: zero plus the total, divided by the literal `0x4B000000` (the float 8388608). -/
def mean (x y : Arr) : EReal :=
  Ideal.div (Ideal.ofBits .f32 0x00000000#32 + total x y) (Ideal.ofBits .f32 0x4B000000#32)

end MeanAbsDiff

end
-- ==== Proof.Result.lean ====
/-
  The kernel's result is the mean absolute difference.

  Over the extended reals one step adds to the scratch, at sublane `a` and lane `b`, the point's part — the terms at
  rows `8 g + a` of its block, whose flat positions in the arguments are `(16384 t + 8 g + a) 128 + b`. By induction
  on the point the scratch after point `n` holds the parts of the points of `n`'s shard up to `n`; so at a shard's last
  point it holds the shard's cell, which is what that point writes back into its block of the [2,8,128] result. The
  two blocks cover the result, so it ends holding the cells; the lines after the call add them to zero — the total —
  and divide by 8388608.
-/
import proofs.«121687_j42545946034228_2_alg».proof.Proof.Chain
import proofs.«121687_j42545946034228_2_alg».proof.Proof.Payload
import proofs.«121687_j42545946034228_2_alg».proof.Proof.Blocks
import proofs.«121687_j42545946034228_2_alg».proof.Proof.Spec
import Idealize.ShloMosaic.Lib.Pipeline.Value
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen
open Cert.KernelIdeal.Chain Cert.KernelIdeal.Payload Cert.KernelIdeal.Blocks
open Idealize.ShloMosaic.ValueIdx MeanAbsDiff Finset

variable (m : (ℓ : Loc nD τ sig) → Buf (Elt Ideal) ℓ) (ρ : Dev nD → PrngReg)

/-- The two argument arrays on core `c`, as arrays of extended reals. -/
abbrev X (c : Dev nD) : Arr := m ((c : Thread nD τ).loc main_arg0)
abbrev Y (c : Dev nD) : Arr := m ((c : Thread nD τ).loc main_arg1)

/-- A block entry of the first input is the first argument's entry at the same flat position, -/
theorem iblk0_flat (c : Dev nD) (t : Fin cfg0.N) (r : Fin 16384) (l : Fin 128) (n : ℕ)
    (hn : n = (t.val * 16384 + r.val) * 128 + l.val) :
    (iblk m c 0 t : Vec Ideal S16384x128 .f32) (ix2 r l) = X m c (ix2 (rowOf n) (colOf n)) := by
  have hN : t.val < 32 := lt_of_lt_of_eq t.isLt (show cfg0.N = 32 from N_0)
  refine (iblk0_apply m c t r l).trans ((congrFun (V_main_v0 m c) _).trans
    (view_apply _ (blockRow t r) l (rowOf n) (colOf n) ?_))
  rw [rowOf_val, colOf_val, blockRow_val]
  omega
/-- and of the second input the second argument's. -/
theorem iblk1_flat (c : Dev nD) (t : Fin cfg0.N) (r : Fin 16384) (l : Fin 128) (n : ℕ)
    (hn : n = (t.val * 16384 + r.val) * 128 + l.val) :
    (iblk m c 1 t : Vec Ideal S16384x128 .f32) (ix2 r l) = Y m c (ix2 (rowOf n) (colOf n)) := by
  have hN : t.val < 32 := lt_of_lt_of_eq t.isLt (show cfg0.N = 32 from N_0)
  refine (iblk1_apply m c t r l).trans ((congrFun (V_main_v1 m c) _).trans
    (view_apply _ (blockRow t r) l (rowOf n) (colOf n) ?_))
  rw [rowOf_val, colOf_val, blockRow_val]
  omega

/-- One step adds the point's part to what the scratch held. -/
theorem step_apply (c : Dev nD) (n : ℕ) (h : n < cfg0.N) (xs : Vec Ideal S8x128 .f32) (a : Fin 8) (b : Fin 128) :
    k0_pay2 (F := Ideal) (iblk m c 0 ⟨n, h⟩) (iblk m c 1 ⟨n, h⟩) xs (ix2 a b)
      = xs (ix2 a b) + part (X m c) (Y m c) n a.val b.val := by
  refine (pay2_apply (iblk m c 0 ⟨n, h⟩) (iblk m c 1 ⟨n, h⟩) xs a b).trans ?_
  refine congrArg (fun z => xs (ix2 a b) + z) ?_
  unfold part
  rw [← Fin.sum_univ_eq_sum_range (fun g => term (X m c) (Y m c) ((n * 16384 + (g * 8 + a.val)) * 128 + b.val)) 2048]
  refine sum_congr rfl fun g _ => ?_
  have e0 := iblk0_flat m c ⟨n, h⟩ (groupRow g a) b ((n * 16384 + (g.val * 8 + a.val)) * 128 + b.val) rfl
  have e1 := iblk1_flat m c ⟨n, h⟩ (groupRow g a) b ((n * 16384 + (g.val * 8 + a.val)) * 128 + b.val) rfl
  exact congrArg₂ (fun u v => FloatOps.absf (F := Ideal) (φ := .f32) (u - v)) e0 e1

/-- So after point `n` the scratch holds, at sublane `a` and lane `b`, the parts of the points of `n`'s shard up to `n`. -/
theorem scratch_eq (c : Dev nD) (n : ℕ) : ∀ (h : n < cfg0.N) (a : Fin 8) (b : Fin 128),
    (outsAt0 m c n h).2 (ix2 a b)
      = ∑ i ∈ range (n % 16 + 1), part (X m c) (Y m c) (n / 16 * 16 + i) a.val b.val := by
  induction n with
  | zero =>
    intro h a b
    refine (congrFun (step_scratch m c ⟨0, h⟩) (ix2 a b)).trans ?_
    refine (step_apply m c 0 h _ a b).trans ?_
    show (if (0 : ℕ) % 16 = 0 then k0_pay1 (F := Ideal) else _) (ix2 a b) + _ = _
    rw [if_pos (by norm_num), pay1_apply, zero_add]
    norm_num
  | succ n ih =>
    intro h a b
    have hN : n + 1 < 32 := lt_of_lt_of_eq h (show cfg0.N = 32 from N_0)
    refine (congrFun (step_scratch m c ⟨n + 1, h⟩) (ix2 a b)).trans ?_
    refine (step_apply m c (n + 1) h _ a b).trans ?_
    show (if (n + 1) % 16 = 0 then k0_pay1 (F := Ideal) else (outsAt0 m c n _).2) (ix2 a b) + _ = _
    by_cases h0 : (n + 1) % 16 = 0
    · rw [if_pos h0, pay1_apply, zero_add]
      have e1 : (n + 1) % 16 + 1 = 1 := by omega
      have e2 : (n + 1) / 16 * 16 = n + 1 := by omega
      rw [e1, e2, sum_range_one, add_zero]
    · rw [if_neg h0, ih (Nat.lt_of_succ_lt h) a b]
      have e1 : (n + 1) % 16 + 1 = (n % 16 + 1) + 1 := by omega
      have e2 : (n + 1) / 16 = n / 16 := by omega
      have e3 : n / 16 * 16 + (n % 16 + 1) = n + 1 := by omega
      rw [e1, e2, sum_range_succ _ (n % 16 + 1), e3]

/-- What the [2,8,128] result array ends holding: entry `(s, a, b)` is shard `s`'s accumulated cell. -/
def G (c : Dev nD) : Buf (Elt Ideal) ((c : Thread nD τ).loc main_v2) :=
  fun j => cell (X m c) (Y m c) (j 0).val (j 1).val (j 2).val

/-- The block a shard's last point leaves for writing back, at a block index `j`, is `G` at any array index with
    shard `t / 16` and `j`'s sublane and lane. -/
theorem flushed_at (c : Dev nD) (t : Fin cfg0.N) (h15 : t.val % 16 = 15) (j : S1x8x128.Idx) (i : S2x8x128.Idx)
    (h0 : (i 0).val = t.val / 16) (h1 : (i 1).val = (j 1).val) (h2 : (i 2).val = (j 2).val) :
    k0_pay3 (F := Ideal) (outsAt0 m c t.val t.isLt).2 j = G m c i := by
  have e := pay3_apply (outsAt0 m c t.val t.isLt).2 (j 0) (j 1) (j 2)
  refine ((congrArg (k0_pay3 (F := Ideal) (outsAt0 m c t.val t.isLt).2) (eq_ix3 j)).trans e).trans
    ((scratch_eq m c t.val t.isLt (j 1) (j 2)).trans ?_)
  unfold G cell
  rw [h0, h1, h2, h15]

/-- What a shard's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h15 : t.val % 16 = 15 := (flush0_2 t).mp hf
  obtain ⟨e0, e1, e2⟩ := out_index t
  show (cfg0.win 2).cut (grid0.coords t) ((dats m 0 c).after 2 t) = _
  rw [after0_2, step_out m c t h15]
  funext j
  show k0_pay3 (F := Ideal) (outsAt0 m c t.val t.isLt).2 j = G m c (((cfg0.win 2).blk t).view.emb j)
  refine flushed_at m c t h15 j _ ?_ ?_ ?_
  · show win0_2.index t (0 : Fin 3) * 1 + 1 * (j 0).val = t.val / 16
    have hj : (j 0).val < 1 := (j 0).isLt
    rw [e0]; omega
  · show win0_2.index t (1 : Fin 3) * 8 + 1 * (j 1).val = (j 1).val
    rw [e1]; omega
  · show win0_2.index t (2 : Fin 3) * 128 + 1 * (j 2).val = (j 2).val
    rw [e2]; omega

/-- An index of the result array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- Every index `(s, a, b)` of the result array is in the block shard `s`'s last point writes back. -/
theorem cover (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have ht : (i 0).val * 16 + 15 < cfg0.N := lt_of_lt_of_eq (by omega : (i 0).val * 16 + 15 < 32) (N_0).symm
  refine ⟨⟨(i 0).val * 16 + 15, ht⟩, (flush0_2 _).mpr (by show ((i 0).val * 16 + 15) % 16 = 15; omega), ?_⟩
  rw [mem_blk]
  obtain ⟨e0, e1, e2⟩ := out_index ⟨(i 0).val * 16 + 15, ht⟩
  have hq : ((i 0).val * 16 + 15) / 16 = (i 0).val := by omega
  intro a
  match a with
  | ⟨0, _⟩ =>
    show win0_2.index ⟨(i 0).val * 16 + 15, ht⟩ (0 : Fin 3) * 1 ≤ (i 0).val
      ∧ (i 0).val < win0_2.index ⟨(i 0).val * 16 + 15, ht⟩ (0 : Fin 3) * 1 + 1
    rw [e0]; show ((i 0).val * 16 + 15) / 16 * 1 ≤ (i 0).val ∧ (i 0).val < ((i 0).val * 16 + 15) / 16 * 1 + 1
    rw [hq]; omega
  | ⟨1, _⟩ =>
    show win0_2.index ⟨(i 0).val * 16 + 15, ht⟩ (1 : Fin 3) * 8 ≤ (i 1).val
      ∧ (i 1).val < win0_2.index ⟨(i 0).val * 16 + 15, ht⟩ (1 : Fin 3) * 8 + 8
    rw [e1]; omega
  | ⟨2, _⟩ =>
    show win0_2.index ⟨(i 0).val * 16 + 15, ht⟩ (2 : Fin 3) * 128 ≤ (i 2).val
      ∧ (i 2).val < win0_2.index ⟨(i 0).val * 16 + 15, ht⟩ (2 : Fin 3) * 128 + 128
    rw [e2]; omega

/-- So the result array ends holding `G`. -/
theorem final (c : Dev nD) : (dats m 0 c).arrAt 2 cfg0.N = G m c :=
  (dats m 0 c).arrAt_eq_of_cover 2 (G m c) (flushed_eq m c) cover

/-- The lines after the region — zero, the sum over all three axes from it, 8388608, the quotient — applied to an
    array whose entries add up to `T`. -/
theorem tail_val (v : Vec Ideal S2x8x128 .f32) (T : EReal) (hv : ∑ j : S2x8x128.Idx, v j = T) (i : S_.Idx) :
    Host.divf (F := Ideal) (Host.reduceAdd (F := Ideal) v (constant (F := Ideal) S_ .f32 0x00000000#32)
        reducesTo_S2x8x128_S_d0_1_2 h_S_) (constant (F := Ideal) S_ .f32 0x4B000000#32) i
      = Ideal.div (Ideal.ofBits .f32 0x00000000#32 + T) (Ideal.ofBits .f32 0x4B000000#32) := by
  show Ideal.div (Host.reduceAdd (F := Ideal) v (constant (F := Ideal) S_ .f32 0x00000000#32)
        reducesTo_S2x8x128_S_d0_1_2 h_S_ i) _ = _
  simp only [Host.reduceAdd, Ideal.hostReduceAdd_def]
  rw [Ideal.hostReduceAdd_total reducesTo_S2x8x128_S_d0_1_2 (fun b => b.elim0) v _ i, hv]
  rfl

/-- The program's result: the mean absolute difference of the two arguments. -/
theorem tail_eq (c : Dev nD) :
    Pipeline.afterTail₀ cfgs (dats m) 0 (V0 m) [hostOps1] c main_v4 = fun _ => mean (X m c) (Y m c) := by
  unfold Pipeline.afterTail₀
  show StableHlo.after hostOps1 _ (Proc.devRef .tc main_v4) = _
  after_results
  have hw := (Pipeline.withArrays_arr spec0 launch0.win.arr_inj c (V0 m c)
    (fun w => (dats m 0 c).arrAt w cfg0.N) 2).trans (final m c)
  refine (congrArg (fun v : Vec Ideal S2x8x128 .f32 => Host.divf (F := Ideal) (Host.reduceAdd (F := Ideal) v
    (constant (F := Ideal) S_ .f32 0x00000000#32) reducesTo_S2x8x128_S_d0_1_2 h_S_)
    (constant (F := Ideal) S_ .f32 0x4B000000#32)) hw).trans ?_
  funext i
  exact tail_val (G m c) (total (X m c) (Y m c)) (sum_cells (X m c) (Y m c)) i

/-- Every weakly fair execution ends with the result at the mean absolute difference of the two arguments, and
    with the arguments unchanged. -/
theorem run : θ_run defs (onTc (τ := τ) (main (F := Ideal))) ⟨m, fun _ => 0, ρ⟩ fun r => ∀ c : Dev nD,
      r.2.mem ((c : Thread nD τ).loc main_v4) = (fun _ => mean (X m c) (Y m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.Reference.lean ====
/-
  The reference is the mean absolute difference.

  Its six host operations are: subtract, absolute value, the constant zero, the sum over both axes from that zero, the
  constant 8388608, the quotient. Over the extended reals the sum over both axes is the initial value plus the sum over
  every index, and the sum over every index of `|x - y|` is the total of the flat terms.
-/
import proofs.«121687_j42545946034228_2_alg».proof.Proof.Gen.ReferenceIdeal.Read
import proofs.«121687_j42545946034228_2_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read MeanAbsDiff

/-- The reference's last stage is `mean` of its two arguments, at its one index. -/
theorem result_eq (x0 x1 : (⟨S8388608x8, .f32⟩ : BufTy).Contents (Elt Ideal)) :
    val_main_v3 (F := Ideal) x0 x1 = fun _ => mean x0 x1 := by
  funext i
  have hs : ∑ j : S8388608x8.Idx, val_main_v1 (F := Ideal) x0 x1 j = total x0 x1 :=
    (Finset.sum_congr rfl fun j _ => rfl).trans (sum_idx_eq_total x0 x1)
  rw [val_main_v3_apply, val_main_v2_apply, hs]
  rfl

end Cert.ReferenceIdeal.RefValue

end
-- ==== Proof.lean ====
/-
  The kernel and its reference compute the same mean absolute difference over the extended reals.

  The reference subtracts two [8388608,8] arrays, takes absolute values, adds all 67108864 of them to zero and divides by
  8388608. The kernel views both arrays as [524288,128]; on a 2 × 16 grid each point takes a block of 16384 rows, forms
  the absolute differences, adds them over 2048 groups of eight rows into an [8,128] partial, and adds the partial into a
  scratch accumulator that is zeroed at the first point of each of the two shards and copied to that shard's [1,8,128]
  block of the [2,8,128] result at its last point; the lines after the call add the 2048 result entries to zero and
  divide by 8388608. Every flat position of the inputs is reached exactly once — it has one set of digits
  (shard, point, group, sublane, lane) — and addition of extended reals is commutative and associative, so the two
  totals are one number whatever the entries are, and the quotients are taken by the same literal. The finiteness
  precondition is not used.

  The frames of the two kernel programs are the generated ones; the reference's frame is its generated run with the
  result dropped. The idealization rewrote nothing, so `preserves` is `True`.
-/
import proofs.«121687_j42545946034228_2_alg».proof.Defs
import proofs.«121687_j42545946034228_2_alg».proof.Proof.Gen.Kernel
import proofs.«121687_j42545946034228_2_alg».proof.Proof.Gen.Kernel.Frame
import proofs.«121687_j42545946034228_2_alg».proof.Proof.Gen.KernelIdeal
import proofs.«121687_j42545946034228_2_alg».proof.Proof.Gen.KernelIdeal.Frame
import proofs.«121687_j42545946034228_2_alg».proof.Proof.Gen.ReferenceIdeal
import proofs.«121687_j42545946034228_2_alg».proof.Proof.Gen.ReferenceIdeal.Run
import proofs.«121687_j42545946034228_2_alg».proof.Proof.Gen.ReferenceIdeal.Read
import proofs.«121687_j42545946034228_2_alg».proof.Proof.Gen.Pre_finite_inputs
import proofs.«121687_j42545946034228_2_alg».proof.Proof.Result
import proofs.«121687_j42545946034228_2_alg».proof.Proof.Reference
import Idealize.ShloMosaic.Adequacy
import Idealize.ShloMosaic.Init

noncomputable section

namespace Cert.Proof

open Idealize.ShloMosaic Idealize.SL.Sem MeanAbsDiff

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `mean` of the two arguments; the memories agree on the arguments. -/
theorem algebraic : Cert.algebraic_KernelIdeal_ReferenceIdeal := by
  intro m ρ m' ρ' _ hagree
  refine ⟨fun c => fun _ => mean (Cert.KernelIdeal.Result.X m c) (Cert.KernelIdeal.Result.Y m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
